-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x16 .f32) (main_arg3 : FVec F S16x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S2048x512 : Shape := ⟨2, ![2048, 512]⟩
abbrev S512x1024 : Shape := ⟨2, ![512, 1024]⟩
abbrev S512x16 : Shape := ⟨2, ![512, 16]⟩
abbrev S16x1024 : Shape := ⟨2, ![16, 1024]⟩
abbrev S1x1024 : Shape := ⟨2, ![1, 1024]⟩
abbrev S2048x1024 : Shape := ⟨2, ![2048, 1024]⟩
abbrev S2048x16 : Shape := ⟨2, ![2048, 16]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S16x4096, .bf16⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S512x16, .bf16⟩
  | .local _ .vmem, ⟨5, _⟩ => ⟨S512x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S4096x16 : S_.BroadcastsInDim S4096x16 (![] : Fin 0 → Fin S4096x16.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S2048x1024_S2048x1024 : S2048x1024.ShapeCasts S2048x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  dot_S2048x512_S512x16_S2048x16_1_0_0_1_n_n_wf : DotDims.WF S2048x512 S512x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .bf16 = 32 ∨ (Rect.block (s := S4096x16) S512x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S4x2048x16 : Shape := ⟨3, ![4, 2048, 16]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.Pieces.lean ====
/-
  What each case of the body leaves behind, as arithmetic of what it found.

  A grid point is the first of its pass (the running block and the running projection are reset and then stepped), an inner
  point (both are stepped from what the point before left), or the last of its pass (both are stepped, and the block is then
  closed with the low-rank term and the bias). Each store covers its whole buffer, so what a buffer holds afterwards is the
  last value stored into it, and every load that follows a store reads the value just stored.
-/
import proofs.«180537_j85401129714088_2_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First point of a pass: the block is the zero block stepped once. -/
theorem blockFirst (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : cond0_0 i) (hc1 : ¬cond0_1 i) (x0 : Vec F S2048x512 .bf16) (x1 : Vec F S512x1024 .bf16) (x2 : Vec F S512x16 .bf16) (x3 : Vec F S16x1024 .bf16) (x4 : Vec F S1x1024 .f32) :
    out0_A_5 c i arg3 harg3 arg4 harg4 arg5 harg5 arg6 harg6 arg7 harg7 arg8 harg8 arg9 harg9 hc0 hc1 x0 x1 x2 x3 x4 = k0_pay4 x0 x1 (k0_pay1 (F := F)) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x1024) hz]
  simp only [View.readCov_unit_zero (S := S2048x1024) _ hz, View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

/-- First point of a pass: the projection is the zero projection stepped once. -/
theorem lowFirst (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : cond0_0 i) (hc1 : ¬cond0_1 i) (x0 : Vec F S2048x512 .bf16) (x1 : Vec F S512x1024 .bf16) (x2 : Vec F S512x16 .bf16) (x3 : Vec F S16x1024 .bf16) (x4 : Vec F S1x1024 .f32) :
    sout0_A_0 c i arg3 harg3 arg4 harg4 arg5 harg5 arg6 harg6 arg7 harg7 arg8 harg8 arg9 harg9 hc0 hc1 x0 x1 x2 x3 x4 = k0_pay5 x0 x2 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x16) hz]
  simp only [View.readCov_unit_zero (S := S2048x16) _ hz, View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

/-- Inner point: the block the point before left, stepped once. -/
theorem blockInner (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : ¬cond0_1 i) (x0 : Vec F S2048x512 .bf16) (x1 : Vec F S512x1024 .bf16) (x2 : Vec F S512x16 .bf16) (x3 : Vec F S16x1024 .bf16) (x4 : Vec F S1x1024 .f32) (xo5 : Vec F S2048x1024 .f32) (xs0 : Vec F S2048x16 .f32) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

/-- Inner point: the projection the point before left, stepped once. -/
theorem lowInner (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : ¬cond0_1 i) (x0 : Vec F S2048x512 .bf16) (x1 : Vec F S512x1024 .bf16) (x2 : Vec F S512x16 .bf16) (x3 : Vec F S16x1024 .bf16) (x4 : Vec F S1x1024 .f32) (xo5 : Vec F S2048x1024 .f32) (xs0 : Vec F S2048x16 .f32) :
    sout0_B_0 c i arg3 harg3 arg4 harg4 arg5 harg5 arg6 harg6 arg7 harg7 arg8 harg8 arg9 harg9 hc0 hc1 x0 x1 x2 x3 x4 xo5 xs0 = k0_pay5 x0 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

/-- Last point of a pass: the stepped block closed with the stepped projection. -/
theorem blockLast (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : cond0_1 i) (x0 : Vec F S2048x512 .bf16) (x1 : Vec F S512x1024 .bf16) (x2 : Vec F S512x16 .bf16) (x3 : Vec F S16x1024 .bf16) (x4 : Vec F S1x1024 .f32) (xo5 : Vec F S2048x1024 .f32) (xs0 : Vec F S2048x16 .f32) :
    out0_C_5 c i arg3 harg3 arg4 harg4 arg5 harg5 arg6 harg6 arg7 harg7 arg8 harg8 arg9 harg9 hc0 hc1 x0 x1 x2 x3 x4 xo5 xs0 = k0_pay6 x3 (k0_pay5 x0 x2 xs0) (k0_pay4 x0 x1 xo5) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S2048x1024) hz]
  simp only [View.readCov_unit_zero (S := S2048x1024) _ hz, View.readCov_unit_zero (S := S2048x16) _ hz, View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

/-- Last point of a pass: the projection the point before left, stepped once. -/
theorem lowLast (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : cond0_1 i) (x0 : Vec F S2048x512 .bf16) (x1 : Vec F S512x1024 .bf16) (x2 : Vec F S512x16 .bf16) (x3 : Vec F S16x1024 .bf16) (x4 : Vec F S1x1024 .f32) (xo5 : Vec F S2048x1024 .f32) (xs0 : Vec F S2048x16 .f32) :
    sout0_C_0 c i arg3 harg3 arg4 harg4 arg5 harg5 arg6 harg6 arg7 harg7 arg8 harg8 arg9 harg9 hc0 hc1 x0 x1 x2 x3 x4 xo5 xs0 = k0_pay5 x0 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S2048x512) hz, View.ld_unit_zero (S := S512x1024) hz, View.ld_unit_zero (S := S512x16) hz, View.ld_unit_zero (S := S16x1024) hz, View.ld_unit_zero (S := S1x1024) hz, View.ld_unit_zero (S := S2048x1024) hz, View.ld_unit_zero (S := S2048x16) hz]

end Cert.KernelIdeal.Found

end
-- ==== Proof.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.Payload.lean ====
/-
  The body's arithmetic, read at an index over the extended reals.

  One grid point adds, to the running [2048, 1024] block and to the running [2048, 16] projection, the product of the point's
  [2048, 512] stretch of input rows with its [512, 1024] stretch of the weight and with its [512, 16] stretch of the scaled
  down-projection: each entry grows by a sum of 512 products. The first point of a pass starts both from the zero block. The
  last point of a pass multiplies the finished projection by the [16, 1024] stretch of the up-projection (a sum of 16 products
  per entry), adds that to the finished block and adds the bias row to every row. A change of float format is the identity here.
-/
import proofs.«180537_j85401129714088_2_alg».proof.Proof.Gen.KernelIdeal.Skeleton
import proofs.«180537_j85401129714088_2_alg».proof.Proof.LibPayIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.KernelIdeal.Hand Idealize.ShloMosaic Idealize.ShloMosaic.ValueIdx

/-- The block a pass starts from is zero everywhere. -/
theorem zeroBlock_apply (j : S2048x1024.Idx) : k0_pay1 (F := Ideal) j = 0 := by
  unfold k0_pay1
  exact Ideal.ofBits_zero_f32

/-- The projection a pass starts from is zero everywhere. -/
theorem zeroLow_apply (j : S2048x16.Idx) : k0_pay2 (F := Ideal) j = 0 := by
  unfold k0_pay2
  rw [shapeCast_self]
  exact Ideal.ofBits_zero_f32

/-- One point's step on the running block: entry (r, cc) grows by the 512 products of row `r` of the input stretch with
    column `cc` of the weight stretch. -/
theorem stepBlock_apply (v3 : Vec Ideal S2048x512 .bf16) (v5 : Vec Ideal S512x1024 .bf16) (v9 : Vec Ideal S2048x1024 .f32)
    (r : Fin 2048) (cc : Fin 1024) :
    k0_pay4 (F := Ideal) v3 v5 v9 (ix2 r cc) = v9 (ix2 r cc) + ∑ d : Fin 512, v3 (ix2 r d) * v5 (ix2 d cc) := by
  unfold k0_pay4 k0_pay3
  simp only [shapeCast_self]
  exact congrArg (v9 (ix2 r cc) + ·)
    (matmul_plain_zero_apply dot_S2048x512_S512x1024_S2048x1024_1_0_0_1_n_n_wf none v3 v5 r cc)

/-- One point's step on the running projection: entry (r, q) grows by the 512 products of row `r` of the input stretch with
    column `q` of the down-projection stretch. -/
theorem stepLow_apply (v3 : Vec Ideal S2048x512 .bf16) (v7 : Vec Ideal S512x16 .bf16) (v14 : Vec Ideal S2048x16 .f32)
    (r : Fin 2048) (q : Fin 16) :
    k0_pay5 (F := Ideal) v3 v7 v14 (ix2 r q) = v14 (ix2 r q) + ∑ d : Fin 512, v3 (ix2 r d) * v7 (ix2 d q) := by
  unfold k0_pay5 k0_pay3
  simp only [shapeCast_self]
  exact congrArg (v14 (ix2 r q) + ·)
    (matmul_plain_zero_apply dot_S2048x512_S512x16_S2048x16_1_0_0_1_n_n_wf none v3 v7 r q)

/-- The last point's closing step: entry (r, cc) of the finished block, plus the 16 products of row `r` of the finished
    projection with column `cc` of the up-projection stretch, plus entry `cc` of the bias row. -/
theorem close_apply (v23 : Vec Ideal S16x1024 .bf16) (v25 : Vec Ideal S2048x16 .f32) (v28 : Vec Ideal S2048x1024 .f32)
    (v31 : Vec Ideal S1x1024 .f32) (r : Fin 2048) (cc : Fin 1024) :
    k0_pay6 (F := Ideal) v23 v25 v28 v31 (ix2 r cc)
      = (v28 (ix2 r cc) + ∑ q : Fin 16, v25 (ix2 r q) * v23 (ix2 q cc)) + v31 (ix2 (0 : Fin 1) cc) := by
  unfold k0_pay6
  simp only [shapeCast_self]
  have hb : broadcastTo S2048x1024 v31 broadcasts_S1x1024_S2048x1024 (ix2 r cc) = v31 (ix2 (0 : Fin 1) cc) := by
    refine broadcastTo_apply v31 broadcasts_S1x1024_S2048x1024 (ix2 r cc) (ix2 (0 : Fin 1) cc) fun ax => ?_
    match ax with
    | ⟨0, _⟩ => rfl
    | ⟨1, _⟩ => rfl
  show (v28 (ix2 r cc) + _) + _ = _
  rw [hb]
  exact congrArg (fun z => (v28 (ix2 r cc) + z) + v31 (ix2 (0 : Fin 1) cc))
    (matmul_plain_zero_apply dot_S2048x16_S16x1024_S2048x1024_1_0_0_1_n_n_wf none (truncf .bf16 v25 bitsLt_bf16_f32) v23 r cc)

end Cert.KernelIdeal.Body

end
-- ==== Proof.LibBlockSums.lean ====
/-
  Sums over the indices of an array cut into blocks of consecutive rows, and a count kept in 32-bit integers.

  * the embedding of the reals into the extended reals commutes with finite sums;
  * a sum over the indices of a shape [n, 1, 1] is the sum over its first coordinate;
  * a sum over the indices of a shape [nb * rb, C] is the sum, over the nb blocks of rb consecutive rows, of the
    sums over each block's own indices [rb, C]: row `rb * p + r` of the array is row `r` of block `p`
    (addition in a commutative monoid: nothing is asked of the summands);
  * the two's-complement sum of fewer than 2^31 words, each 0 or 1, read back as a signed integer, is the number of
    ones: the partial sums never reach 2^31, so the 32-bit addition never wraps.
-/
import Idealize.ShloMosaic.Lib.ValueIdx
import Idealize.ShloMosaic.PureOps.Reduce
import Idealize.ShloMosaic.PureOps.Ideal

namespace Cert.BlockSums

open Idealize.ShloMosaic Idealize.ShloMosaic.ValueIdx

/-- The embedding of the reals into the extended reals commutes with finite sums. -/
theorem coe_sum {ι : Type*} (s : Finset ι) (r : ι → ℝ) :
    ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

/-- A sum over the indices of a shape [n, 1, 1] is the sum over its first coordinate. -/
theorem sum_idx_n11 {M : Type*} [AddCommMonoid M] {n : ℕ} (h : (⟨3, ![n, 1, 1]⟩ : Shape).Idx → M) :
    ∑ i, h i = ∑ p : Fin n, h (ix3 p 0 0) := by
  let e : Fin n ≃ (⟨3, ![n, 1, 1]⟩ : Shape).Idx :=
    { toFun := fun p => ix3 p 0 0
      invFun := fun i => i 0
      left_inv := fun p => rfl
      right_inv := fun i => by
        funext a
        match a with
        | ⟨0, _⟩ => rfl
        | ⟨1, _⟩ => exact Fin.ext (by have h1 : (i 1).val < 1 := (i 1).isLt; show 0 = (i 1).val; omega)
        | ⟨2, _⟩ => exact Fin.ext (by have h2 : (i 2).val < 1 := (i 2).isLt; show 0 = (i 2).val; omega) }
  exact (Fintype.sum_equiv e (fun p => h (ix3 p 0 0)) h (fun p => rfl)).symm

/-- Row `r` of block `p`, of `nb` blocks of `rb` rows, is a row of the array. -/
theorem blockRow_lt {nb rb p r : ℕ} (hp : p < nb) (hr : r < rb) : rb * p + r < nb * rb :=
  calc rb * p + r < rb * p + rb := by omega
    _ = rb * (p + 1) := by ring
    _ ≤ rb * nb := Nat.mul_le_mul_left _ hp
    _ = nb * rb := Nat.mul_comm _ _

/-- A sum over the rows of an array of `nb * rb` rows, block by block. -/
theorem sum_fin_blocks {M : Type*} [AddCommMonoid M] (nb rb : ℕ) (f : Fin (nb * rb) → M) :
    ∑ a, f a = ∑ p : Fin nb, ∑ r : Fin rb, f ⟨rb * p.val + r.val, blockRow_lt p.isLt r.isLt⟩ := by
  rw [← Equiv.sum_comp finProdFinEquiv f, Fintype.sum_prod_type]
  refine Finset.sum_congr rfl fun p _ => Finset.sum_congr rfl fun r _ => congrArg f (Fin.ext ?_)
  show r.val + rb * p.val = rb * p.val + r.val
  omega

/-- A sum over the indices of an array [N, C] of `N = nb * rb` rows is the sum over the blocks of `rb` consecutive
    rows of the sums over each block's indices. -/
theorem sum_rowBlocks {M : Type*} [AddCommMonoid M] {N nb rb C : ℕ} (hN : N = nb * rb)
    (g : (⟨2, ![N, C]⟩ : Shape).Idx → M) :
    ∑ j, g j = ∑ p : Fin nb, ∑ y : (⟨2, ![rb, C]⟩ : Shape).Idx,
      g (ix2 ⟨rb * p.val + (y 0).val, hN ▸ blockRow_lt p.isLt (y 0).isLt⟩ (y 1)) := by
  subst hN
  rw [sum_idx2 g, sum_fin_blocks nb rb]
  refine Finset.sum_congr rfl fun p _ => ?_
  rw [sum_idx2]
  rfl

/-- A one-bit word widened to 32 bits is 0 or 1. -/
theorem toNat_setWidth_bit_le (b : BitVec 1) : (b.setWidth 32).toNat ≤ 1 := by
  have := b.isLt
  rw [BitVec.toNat_setWidth]
  omega

/-- The 32-bit sum of a finite family of words, each 0 or 1, of fewer than 2^32 members, is their number of ones. -/
theorem toNat_fold_addi {ι : Type*} [DecidableEq ι] (x : ι → BitVec 32) (hx : ∀ j, (x j).toNat ≤ 1) (S : Finset ι) :
    S.card < 2 ^ 32 → (S.fold IntOp.addi 0#32 x).toNat = ∑ j ∈ S, (x j).toNat ∧ ∑ j ∈ S, (x j).toNat ≤ S.card := by
  induction S using Finset.induction_on with
  | empty => intro _; simp
  | insert a S ha ih =>
    intro hc
    rw [Finset.card_insert_of_notMem ha] at hc
    obtain ⟨e, hle⟩ := ih (by omega)
    rw [Finset.fold_insert ha, Finset.sum_insert ha, Finset.card_insert_of_notMem ha]
    have ha1 := hx a
    refine ⟨?_, by omega⟩
    show (x a + S.fold IntOp.addi 0#32 x).toNat = _
    rw [BitVec.toNat_add, e]
    exact Nat.mod_eq_of_lt (by omega)

/-- The two's-complement sum of fewer than 2^31 words, each 0 or 1, read as a signed integer and then as an extended
    real, is the sum of the words read so one by one: the count of the ones. -/
theorem toInt_fold_addi_eq_sum {ι : Type*} [Fintype ι] [DecidableEq ι] (x : ι → BitVec 32) (hx : ∀ j, (x j).toNat ≤ 1)
    (hc : Fintype.card ι < 2 ^ 31) :
    (((Finset.univ.fold IntOp.addi 0#32 x).toInt : ℝ) : EReal) = ∑ j, (((x j).toInt : ℝ) : EReal) := by
  obtain ⟨e, hle⟩ := toNat_fold_addi x hx Finset.univ (by rw [Finset.card_univ]; omega)
  rw [Finset.card_univ] at hle
  have hI : ∀ y : BitVec 32, y.toNat < 2 ^ 31 → y.toInt = (y.toNat : ℤ) := fun y hy =>
    BitVec.toInt_eq_toNat_of_lt (by omega)
  rw [hI _ (by omega), e, ← coe_sum]
  congr 1
  rw [Int.cast_natCast, Nat.cast_sum]
  refine Finset.sum_congr rfl fun j _ => ?_
  rw [hI _ (by have := hx j; omega), Int.cast_natCast]

end Cert.BlockSums
-- ==== Proof.Spec.lean ====
/-
  The mathematics of a linear layer with a low-rank correction, over the extended reals.

  Rows are the flattened (batch, position) pairs; `X` is the [8192, 4096] input, `W` the [4096, 4096] weight, `U` the
  [4096, 16] down-projection (already scaled), `V` the [16, 4096] up-projection and `B` the [1, 4096] bias row. The
  layer's entry at (row, col) is

      (∑_d X[row, d] · W[d, col]  +  ∑_q (∑_d X[row, d] · U[d, q]) · V[q, col])  +  B[0, col].

  The contraction over the 4096 input features may be taken in 8 consecutive stretches of 512: the running sum after
  stretch `k` is `part g k`, it starts at the first stretch's sum, grows by one stretch's sum per step, and after the
  last stretch it is the whole sum (addition in a commutative monoid; nothing is asked of the summands).
-/
import Idealize.ShloMosaic.Lib.ValueIdx
import Idealize.ShloMosaic.PureOps.Ideal
import proofs.«180537_j85401129714088_2_alg».proof.Proof.LibBlockSums

noncomputable section

open scoped BigOperators

namespace Cert.LowRank

open Idealize.ShloMosaic Idealize.ShloMosaic.ValueIdx

/-- A family over `Fin n` continued by zero past `n`. -/
def ext0 {n : ℕ} (g : Fin n → EReal) (d : ℕ) : EReal := if h : d < n then g ⟨d, h⟩ else 0

theorem ext0_of_lt {n : ℕ} (g : Fin n → EReal) (d : ℕ) (h : d < n) : ext0 g d = g ⟨d, h⟩ := dif_pos h

/-- The sum of `g` over stretch `kk`: the 512 features from `512 · kk` on. -/
def stretch (g : Fin 4096 → EReal) (kk : ℕ) : EReal := ∑ dd : Fin 512, ext0 g (512 * kk + dd.val)

/-- The running sum of `g` over the stretches `0, …, k`. -/
def part (g : Fin 4096 → EReal) (k : ℕ) : EReal := ∑ kk ∈ Finset.range (k + 1), stretch g kk

theorem part_zero (g : Fin 4096 → EReal) : part g 0 = stretch g 0 := by
  unfold part; rw [Finset.sum_range_one]

theorem part_succ (g : Fin 4096 → EReal) (k : ℕ) : part g (k + 1) = part g k + stretch g (k + 1) := by
  unfold part; rw [Finset.sum_range_succ]

/-- The running sum before stretch `k`, grown by stretch `k`, is the running sum after it. -/
theorem part_step (g : Fin 4096 → EReal) (k k' : ℕ) (hk : k = k' + 1) : part g k' + stretch g k = part g k := by
  subst hk; exact (part_succ g k').symm

/-- A stretch inside the array is a sum of entries of `g`. -/
theorem stretch_eq (g : Fin 4096 → EReal) (kk : ℕ) (hk : kk < 8) :
    stretch g kk = ∑ dd : Fin 512, g ⟨512 * kk + dd.val, by have := dd.isLt; omega⟩ :=
  Finset.sum_congr rfl fun dd _ => ext0_of_lt g _ _

/-- After the eighth stretch the running sum is the whole sum. -/
theorem part_seven (g : Fin 4096 → EReal) : part g 7 = ∑ d : Fin 4096, g d := by
  unfold part
  rw [show (∑ d : Fin 4096, g d) = ∑ a : Fin (8 * 512), g a from rfl, Cert.BlockSums.sum_fin_blocks 8 512 g,
    ← Fin.sum_univ_eq_sum_range (fun kk => stretch g kk) 8]
  exact Finset.sum_congr rfl fun p _ => stretch_eq g p.val p.isLt

/-! The grid has 4 row blocks of 2048 rows, 4 column blocks of 1024 columns and 8 stretches of 512 features; point `n` of
    its 128 points, in row-major order, is row block `n / 32`, column block `(n / 8) % 4`, stretch `n % 8`. -/

/-- Row `r` of point `n`'s row block, as a row of the array. -/
def rowOf (n : ℕ) (hn : n < 128) (r : Fin 2048) : Fin 8192 := ⟨2048 * (n / 32) + r.val, by have := r.isLt; omega⟩

/-- Column `cc` of point `n`'s column block, as a column of the array. -/
def colOf (n : ℕ) (hn : n < 128) (cc : Fin 1024) : Fin 4096 := ⟨1024 * ((n / 8) % 4) + cc.val, by have := cc.isLt; omega⟩

/-- Feature `d` of point `n`'s stretch, as a feature of the array. -/
def featOf (n : ℕ) (hn : n < 128) (d : Fin 512) : Fin 4096 := ⟨512 * (n % 8) + d.val, by have := d.isLt; omega⟩

/-- The products contracted in the main term at (row, col). -/
def gBase (X : (⟨2, ![8192, 4096]⟩ : Shape).Idx → EReal) (W : (⟨2, ![4096, 4096]⟩ : Shape).Idx → EReal)
    (row : Fin 8192) (col : Fin 4096) (d : Fin 4096) : EReal := X (ix2 row d) * W (ix2 d col)

/-- The products contracted in the projection onto rank coordinate `q` at `row`. -/
def gLow (X : (⟨2, ![8192, 4096]⟩ : Shape).Idx → EReal) (U : (⟨2, ![4096, 16]⟩ : Shape).Idx → EReal)
    (row : Fin 8192) (q : Fin 16) (d : Fin 4096) : EReal := X (ix2 row d) * U (ix2 d q)

/-- A point's 512 products for the block are its stretch of the main contraction, when the point's input stretch `x0` and
    weight stretch `x1` read the arrays where the point's coordinates say. -/
theorem stretch_base (X : (⟨2, ![8192, 4096]⟩ : Shape).Idx → EReal) (W : (⟨2, ![4096, 4096]⟩ : Shape).Idx → EReal)
    (x0 : (⟨2, ![2048, 512]⟩ : Shape).Idx → EReal) (x1 : (⟨2, ![512, 1024]⟩ : Shape).Idx → EReal)
    (n : ℕ) (hn : n < 128) (r : Fin 2048) (cc : Fin 1024)
    (h0 : ∀ d, x0 (ix2 r d) = X (ix2 (rowOf n hn r) (featOf n hn d)))
    (h1 : ∀ d, x1 (ix2 d cc) = W (ix2 (featOf n hn d) (colOf n hn cc))) :
    (∑ d : Fin 512, x0 (ix2 r d) * x1 (ix2 d cc)) = stretch (gBase X W (rowOf n hn r) (colOf n hn cc)) (n % 8) := by
  rw [stretch_eq _ _ (by omega)]
  refine Finset.sum_congr rfl fun d _ => ?_
  rw [h0 d, h1 d]
  rfl

/-- A point's 512 products for the projection are its stretch of the projection's contraction. -/
theorem stretch_low (X : (⟨2, ![8192, 4096]⟩ : Shape).Idx → EReal) (U : (⟨2, ![4096, 16]⟩ : Shape).Idx → EReal)
    (x0 : (⟨2, ![2048, 512]⟩ : Shape).Idx → EReal) (x2 : (⟨2, ![512, 16]⟩ : Shape).Idx → EReal)
    (n : ℕ) (hn : n < 128) (r : Fin 2048) (q : Fin 16)
    (h0 : ∀ d, x0 (ix2 r d) = X (ix2 (rowOf n hn r) (featOf n hn d)))
    (h2 : ∀ d, x2 (ix2 d q) = U (ix2 (featOf n hn d) q)) :
    (∑ d : Fin 512, x0 (ix2 r d) * x2 (ix2 d q)) = stretch (gLow X U (rowOf n hn r) q) (n % 8) := by
  rw [stretch_eq _ _ (by omega)]
  refine Finset.sum_congr rfl fun d _ => ?_
  rw [h0 d, h2 d]
  rfl

/-- The layer on flattened rows. -/
def layer (X : (⟨2, ![8192, 4096]⟩ : Shape).Idx → EReal) (W : (⟨2, ![4096, 4096]⟩ : Shape).Idx → EReal)
    (U : (⟨2, ![4096, 16]⟩ : Shape).Idx → EReal) (V : (⟨2, ![16, 4096]⟩ : Shape).Idx → EReal)
    (B : (⟨2, ![1, 4096]⟩ : Shape).Idx → EReal) : (⟨2, ![8192, 4096]⟩ : Shape).Idx → EReal := fun j =>
  ((∑ d : Fin 4096, gBase X W (j 0) (j 1) d) + ∑ q : Fin 16, (∑ d : Fin 4096, gLow X U (j 0) q d) * V (ix2 q (j 1)))
    + B (ix2 (0 : Fin 1) (j 1))

end Cert.LowRank

end
-- ==== Proof.Blocks.lean ====
/-
  Where each window's block sits in its array.

  At grid point `t` (row block `t / 32`, column block `(t / 8) % 4`, stretch `t % 8`) the input window reads rows of its row
  block and features of its stretch; the weight window features of the stretch and columns of the column block; the
  down-projection window features of the stretch and all 16 rank coordinates; the up-projection window all 16 rank
  coordinates and columns of the column block; the bias window the one row and columns of the column block. A block's
  coordinate along an axis is always (block index) × (block extent) + (coordinate inside the block).
-/
import proofs.«180537_j85401129714088_2_alg».proof.Proof.Gen.KernelIdeal.Frame
import proofs.«180537_j85401129714088_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.LowRank Idealize.ShloMosaic Idealize.ShloMosaic.TcCoe Idealize.SL.Sem
open Idealize.ShloMosaic.ValueIdx

variable {F : FTy → Type} [FloatOps F]
variable (m : (ℓ : Loc nD τ sig) → Buf (Elt F) ℓ)

theorem lt128 (t : Fin cfg0.N) : t.val < 128 := lt_of_lt_of_eq t.isLt (show cfg0.N = 128 from N_0)

/-- The block indices of the six windows at every grid point, decided over the grid. -/
theorem index0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem index1 : ∀ t : Fin cfg0.N, win0_1.index t (0 : Fin 2) = t.val % 8 ∧ win0_1.index t (1 : Fin 2) = (t.val / 8) % 4 :=
  (by decide +kernel : ∀ t : Fin grid0.N, win0_1.index t (0 : Fin 2) = t.val % 8 ∧ win0_1.index t (1 : Fin 2) = (t.val / 8) % 4)
theorem index2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem index3 : ∀ t : Fin cfg0.N, win0_3.index t (0 : Fin 2) = 0 ∧ win0_3.index t (1 : Fin 2) = (t.val / 8) % 4 :=
  (by decide +kernel : ∀ t : Fin grid0.N, win0_3.index t (0 : Fin 2) = 0 ∧ win0_3.index t (1 : Fin 2) = (t.val / 8) % 4)
theorem index4 : ∀ t : Fin cfg0.N, win0_4.index t (0 : Fin 2) = 0 ∧ win0_4.index t (1 : Fin 2) = (t.val / 8) % 4 :=
  (by decide +kernel : ∀ t : Fin grid0.N, win0_4.index t (0 : Fin 2) = 0 ∧ win0_4.index t (1 : Fin 2) = (t.val / 8) % 4)
theorem index5 : ∀ t : Fin cfg0.N, win0_5.index t (0 : Fin 2) = t.val / 32 ∧ win0_5.index t (1 : Fin 2) = (t.val / 8) % 4 :=
  (by decide +kernel : ∀ t : Fin grid0.N, win0_5.index t (0 : Fin 2) = t.val / 32 ∧ win0_5.index t (1 : Fin 2) = (t.val / 8) % 4)

/-- The input window's block: rows of the point's row block, features of its stretch. -/
theorem input_apply (c : Dev nD) (t : Fin cfg0.N) (r : Fin 2048) (d : Fin 512) :
    (iblk m c 0 t : Vec F S2048x512 .bf16) (ix2 r d)
      = V m c main_v1 (ix2 (rowOf t.val (lt128 t) r) (featOf t.val (lt128 t) d)) := by
  unfold iblk
  rw [View.read_apply]
  show V m c main_v1 _ = V m c main_v1 _
  congr 1
  funext a
  apply Fin.ext
  match a with
  | ⟨0, _⟩ => show win0_0.index t 0 * 2048 + 1 * r.val = 2048 * (t.val / 32) + r.val; rw [(index0 t).1]; omega
  | ⟨1, _⟩ => show win0_0.index t 1 * 512 + 1 * d.val = 512 * (t.val % 8) + d.val; rw [(index0 t).2]; omega

/-- The weight window's block: features of the point's stretch, columns of its column block. -/
theorem weight_apply (c : Dev nD) (t : Fin cfg0.N) (d : Fin 512) (cc : Fin 1024) :
    (iblk m c 1 t : Vec F S512x1024 .bf16) (ix2 d cc)
      = V m c main_v2 (ix2 (featOf t.val (lt128 t) d) (colOf t.val (lt128 t) cc)) := by
  unfold iblk
  rw [View.read_apply]
  show V m c main_v2 _ = V m c main_v2 _
  congr 1
  funext a
  apply Fin.ext
  match a with
  | ⟨0, _⟩ => show win0_1.index t 0 * 512 + 1 * d.val = 512 * (t.val % 8) + d.val; rw [(index1 t).1]; omega
  | ⟨1, _⟩ => show win0_1.index t 1 * 1024 + 1 * cc.val = 1024 * ((t.val / 8) % 4) + cc.val; rw [(index1 t).2]; omega

/-- The down-projection window's block: features of the point's stretch, every rank coordinate. -/
theorem down_apply (c : Dev nD) (t : Fin cfg0.N) (d : Fin 512) (q : Fin 16) :
    (iblk m c 2 t : Vec F S512x16 .bf16) (ix2 d q) = V m c main_v5 (ix2 (featOf t.val (lt128 t) d) q) := by
  unfold iblk
  rw [View.read_apply]
  show V m c main_v5 _ = V m c main_v5 _
  congr 1
  funext a
  apply Fin.ext
  match a with
  | ⟨0, _⟩ => show win0_2.index t 0 * 512 + 1 * d.val = 512 * (t.val % 8) + d.val; rw [(index2 t).1]; omega
  | ⟨1, _⟩ => show win0_2.index t 1 * 16 + 1 * q.val = q.val; rw [(index2 t).2]; omega

/-- The up-projection window's block: every rank coordinate, columns of the point's column block. -/
theorem up_apply (c : Dev nD) (t : Fin cfg0.N) (q : Fin 16) (cc : Fin 1024) :
    (iblk m c 3 t : Vec F S16x1024 .bf16) (ix2 q cc) = V m c main_v6 (ix2 q (colOf t.val (lt128 t) cc)) := by
  unfold iblk
  rw [View.read_apply]
  show V m c main_v6 _ = V m c main_v6 _
  congr 1
  funext a
  apply Fin.ext
  match a with
  | ⟨0, _⟩ => show win0_3.index t 0 * 16 + 1 * q.val = q.val; rw [(index3 t).1]; omega
  | ⟨1, _⟩ => show win0_3.index t 1 * 1024 + 1 * cc.val = 1024 * ((t.val / 8) % 4) + cc.val; rw [(index3 t).2]; omega

/-- The bias window's block: the one row, columns of the point's column block. -/
theorem bias_apply (c : Dev nD) (t : Fin cfg0.N) (cc : Fin 1024) :
    (iblk m c 4 t : Vec F S1x1024 .f32) (ix2 (0 : Fin 1) cc) = V m c main_v7 (ix2 (0 : Fin 1) (colOf t.val (lt128 t) cc)) := by
  unfold iblk
  rw [View.read_apply]
  show V m c main_v7 _ = V m c main_v7 _
  congr 1
  funext a
  apply Fin.ext
  match a with
  | ⟨0, _⟩ => show win0_4.index t 0 * 1 + 1 * 0 = 0; rw [(index4 t).1]
  | ⟨1, _⟩ => show win0_4.index t 1 * 1024 + 1 * cc.val = 1024 * ((t.val / 8) % 4) + cc.val; rw [(index4 t).2]; omega

/-! The five input blocks of a point, at their literal types. -/

def xblk (c : Dev nD) (t : Fin cfg0.N) : Vec F S2048x512 .bf16 := iblk m c 0 t
def wblk (c : Dev nD) (t : Fin cfg0.N) : Vec F S512x1024 .bf16 := iblk m c 1 t
def ublk (c : Dev nD) (t : Fin cfg0.N) : Vec F S512x16 .bf16 := iblk m c 2 t
def vblk (c : Dev nD) (t : Fin cfg0.N) : Vec F S16x1024 .bf16 := iblk m c 3 t
def bblk (c : Dev nD) (t : Fin cfg0.N) : Vec F S1x1024 .f32 := iblk m c 4 t

theorem xblk_apply (c : Dev nD) (t : Fin cfg0.N) (r : Fin 2048) (d : Fin 512) :
    xblk m c t (ix2 r d) = V m c main_v1 (ix2 (rowOf t.val (lt128 t) r) (featOf t.val (lt128 t) d)) := input_apply m c t r d
theorem wblk_apply (c : Dev nD) (t : Fin cfg0.N) (d : Fin 512) (cc : Fin 1024) :
    wblk m c t (ix2 d cc) = V m c main_v2 (ix2 (featOf t.val (lt128 t) d) (colOf t.val (lt128 t) cc)) := weight_apply m c t d cc
theorem ublk_apply (c : Dev nD) (t : Fin cfg0.N) (d : Fin 512) (q : Fin 16) :
    ublk m c t (ix2 d q) = V m c main_v5 (ix2 (featOf t.val (lt128 t) d) q) := down_apply m c t d q
theorem vblk_apply (c : Dev nD) (t : Fin cfg0.N) (q : Fin 16) (cc : Fin 1024) :
    vblk m c t (ix2 q cc) = V m c main_v6 (ix2 q (colOf t.val (lt128 t) cc)) := up_apply m c t q cc
theorem bblk_apply (c : Dev nD) (t : Fin cfg0.N) (cc : Fin 1024) :
    bblk m c t (ix2 (0 : Fin 1) cc) = V m c main_v7 (ix2 (0 : Fin 1) (colOf t.val (lt128 t) cc)) := bias_apply m c t cc

end Cert.KernelIdeal.Blocks

end
-- ==== Proof.Prefix.lean ====
/-
  What the host lines before the kernel launch hand the kernel, over the extended reals.

  The input is flattened from [4, 2048, 4096] to [8192, 4096] (row `p · 2048 + s` is position `s` of batch `p`), the
  down-projection is multiplied entrywise by the constant 2, the bias becomes the one row of a [1, 4096] array, and the weight
  and the up-projection are passed as they are. The changes of float format on the way are the identity here.
-/
import proofs.«180537_j85401129714088_2_alg».proof.Proof.Gen.KernelIdeal.Frame
import proofs.«180537_j85401129714088_2_alg».proof.Proof.LibPayIdx
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Prefix

open Cert.KernelIdeal Cert.KernelIdeal.Gen Cert.KernelIdeal.Hand Idealize.ShloMosaic Idealize.ShloMosaic.TcCoe Idealize.SL.Sem
open Idealize.ShloMosaic.ValueIdx

variable (m : (ℓ : Loc nD τ sig) → Buf (Elt Ideal) ℓ)

/-- The five argument arrays at launch, as families of extended reals. -/
abbrev inX (c : Dev nD) : S4x2048x4096.Idx → EReal := m ((c : Thread nD τ).loc main_arg0)
abbrev inW (c : Dev nD) : S4096x4096.Idx → EReal := m ((c : Thread nD τ).loc main_arg1)
abbrev inU (c : Dev nD) : S4096x16.Idx → EReal := m ((c : Thread nD τ).loc main_arg2)
abbrev inV (c : Dev nD) : S16x4096.Idx → EReal := m ((c : Thread nD τ).loc main_arg3)
abbrev inB (c : Dev nD) : S4096.Idx → EReal := m ((c : Thread nD τ).loc main_arg4)

/-- The five arrays the kernel is launched on. -/
abbrev kX (c : Dev nD) : S8192x4096.Idx → EReal := V m c main_v1
abbrev kW (c : Dev nD) : S4096x4096.Idx → EReal := V m c main_v2
abbrev kU (c : Dev nD) : S4096x16.Idx → EReal := V m c main_v5
abbrev kV (c : Dev nD) : S16x4096.Idx → EReal := V m c main_v6
abbrev kB (c : Dev nD) : S1x4096.Idx → EReal := V m c main_v7

/-- The flattened input the kernel is launched on. -/
theorem input_eq (c : Dev nD) :
    kX m c = shapeCast S8192x4096 (inX m c) shapeCasts_S4x2048x4096_S8192x4096 := by
  show StableHlo.after hostOps0 (fun b => m (c, b)) (Proc.devRef .tc main_v1) = _
  after_results
  rfl

/-- Row `p · 2048 + s` of the flattened input is position `s` of batch `p`. -/
theorem input_apply (c : Dev nD) (p : Fin 4) (s : Fin 2048) (d : Fin 4096) (row : Fin 8192) (h : row.val = p.val * 2048 + s.val) :
    kX m c (ix2 row d) = inX m c (ix3 p s d) := by
  rw [input_eq]
  exact shapeCast_abk_mk_apply _ shapeCasts_S4x2048x4096_S8192x4096 p s d row h

/-- The weight is passed as it is. -/
theorem weight_eq (c : Dev nD) : kW m c = inW m c := by
  show StableHlo.after hostOps0 (fun b => m (c, b)) (Proc.devRef .tc main_v2) = _
  after_results
  rfl

/-- The down-projection is scaled by the constant whose word is 0x40000000. -/
theorem down_eq (c : Dev nD) :
    kU m c = mulf (F := Ideal) (inU m c) (broadcastInDim S4096x16 ![] bcast_S_S4096x16 (constant (F := Ideal) S_ .f32 0x40000000#32)) := by
  show StableHlo.after hostOps0 (fun b => m (c, b)) (Proc.devRef .tc main_v5) = _
  after_results
  rfl

theorem down_apply (c : Dev nD) (d : Fin 4096) (q : Fin 16) :
    kU m c (ix2 d q) = inU m c (ix2 d q) * Ideal.ofBits .f32 0x40000000#32 := by
  rw [down_eq]
  rfl

/-- The up-projection is passed as it is. -/
theorem up_eq (c : Dev nD) : kV m c = inV m c := by
  show StableHlo.after hostOps0 (fun b => m (c, b)) (Proc.devRef .tc main_v6) = _
  after_results
  rfl

/-- The bias as the one row of a [1, 4096] array. -/
theorem bias_eq (c : Dev nD) : kB m c = shapeCast S1x4096 (inB m c) shapeCasts_S4096_S1x4096 := by
  show StableHlo.after hostOps0 (fun b => m (c, b)) (Proc.devRef .tc main_v7) = _
  after_results
  rfl

theorem bias_apply (c : Dev nD) (f : Fin 4096) : kB m c (ix2 (0 : Fin 1) f) = inB m c (ix1 f) := by
  rw [bias_eq]
  exact shapeCast_a_1a_apply _ shapeCasts_S4096_S1x4096 0 f

end Cert.KernelIdeal.Prefix

end
-- ==== Proof.Passes.lean ====
/-
  What the output block and the projection hold after every grid point.

  The grid runs, for each (row block, column block), a pass of eight points over the stretches of the contracted axis. By
  induction on the point: after stretch `k` of a pass the projection holds, at (r, q), the running sum over stretches
  `0 … k` of the products `X[row, d] · U[d, q]`; the block holds, at (r, cc), the running sum of `X[row, d] · W[d, col]`
  while `k < 7`; and after the eighth stretch the block holds the layer's entry at (row, col): both running sums are then
  whole sums, and the closing step adds the projection's product with the up-projection and the bias. The first point of a
  pass starts from zero, so nothing carries over from one pass to the next.
-/
import proofs.«180537_j85401129714088_2_alg».proof.Proof.Pieces
import proofs.«180537_j85401129714088_2_alg».proof.Proof.Payload
import proofs.«180537_j85401129714088_2_alg».proof.Proof.Blocks
import proofs.«180537_j85401129714088_2_alg».proof.Proof.Prefix
import proofs.«180537_j85401129714088_2_alg».proof.Proof.Spec

noncomputable section

open scoped BigOperators

namespace Cert.KernelIdeal.Passes

open Cert.KernelIdeal Cert.KernelIdeal.Gen Cert.KernelIdeal.Found Cert.KernelIdeal.Body Cert.KernelIdeal.Blocks
open Cert.KernelIdeal.Prefix (kX kW kU kV kB)
open Cert.LowRank Idealize.ShloMosaic Idealize.ShloMosaic.TcCoe Idealize.SL.Sem Idealize.ShloMosaic.ValueIdx

variable (m : (ℓ : Loc nD τ sig) → Buf (Elt Ideal) ℓ)

theorem l128 {n : ℕ} (hn : n < cfg0.N) : n < 128 := lt_of_lt_of_eq hn (show cfg0.N = 128 from N_0)

/-! ## The three kinds of point, as arithmetic of the point's blocks -/

/-- The first point of a pass leaves the zero block and the zero projection, each stepped once. -/
theorem vals_first (c : Dev nD) (t : Fin cfg0.N) (h0 : t.val % 8 = 0) (h1 : ¬t.val % 8 = 7) :
    outsAt0 m c t.val t.isLt
      = (k0_pay4 (F := Ideal) (xblk m c t) (wblk m c t) (k0_pay1 (F := Ideal)),
         k0_pay5 (F := Ideal) (xblk m c t) (ublk m c t) (k0_pay2 (F := Ideal))) :=
  (outsAt0_A m c t h0 h1).trans (congrArg₂ Prod.mk
    (blockFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (wblk m c t) (ublk m c t) (vblk m c t) (bblk m c t))
    (lowFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (wblk m c t) (ublk m c t) (vblk m c t) (bblk m c t)))

/-- An inner point steps what the point before left. -/
theorem vals_inner (c : Dev nD) (t : Fin cfg0.N) (h0 : ¬t.val % 8 = 0) (h1 : ¬t.val % 8 = 7) :
    outsAt0 m c t.val t.isLt
      = (k0_pay4 (F := Ideal) (xblk m c t) (wblk m c t) (outsAt0 m c (t.val - 1) (Nat.lt_of_le_of_lt (Nat.sub_le _ _) t.isLt)).1,
         k0_pay5 (F := Ideal) (xblk m c t) (ublk m c t) (outsAt0 m c (t.val - 1) (Nat.lt_of_le_of_lt (Nat.sub_le _ _) t.isLt)).2) :=
  (outsAt0_B m c t h0 h1).trans (congrArg₂ Prod.mk
    (blockInner (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (wblk m c t) (ublk m c t) (vblk m c t) (bblk m c t) _ _)
    (lowInner (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (wblk m c t) (ublk m c t) (vblk m c t) (bblk m c t) _ _))

/-- The last point of a pass steps what the point before left and closes the block. -/
theorem vals_last (c : Dev nD) (t : Fin cfg0.N) (h0 : ¬t.val % 8 = 0) (h1 : t.val % 8 = 7) :
    outsAt0 m c t.val t.isLt
      = (k0_pay6 (F := Ideal) (vblk m c t) (k0_pay5 (F := Ideal) (xblk m c t) (ublk m c t) (outsAt0 m c (t.val - 1) (Nat.lt_of_le_of_lt (Nat.sub_le _ _) t.isLt)).2)
           (k0_pay4 (F := Ideal) (xblk m c t) (wblk m c t) (outsAt0 m c (t.val - 1) (Nat.lt_of_le_of_lt (Nat.sub_le _ _) t.isLt)).1) (bblk m c t),
         k0_pay5 (F := Ideal) (xblk m c t) (ublk m c t) (outsAt0 m c (t.val - 1) (Nat.lt_of_le_of_lt (Nat.sub_le _ _) t.isLt)).2) :=
  (outsAt0_C m c t h0 h1).trans (congrArg₂ Prod.mk
    (blockLast (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (ublk m c t) (vblk m c t) (bblk m c t) _ _)
    (lowLast (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (ublk m c t) (vblk m c t) (bblk m c t) _ _))

/-! ## A point's products are its stretch of the contractions -/

theorem blockStretch (c : Dev nD) (t : Fin cfg0.N) (r : Fin 2048) (cc : Fin 1024) :
    (∑ d : Fin 512, xblk m c t (ix2 r d) * wblk m c t (ix2 d cc))
      = stretch (gBase (kX m c) (kW m c) (rowOf t.val (lt128 t) r) (colOf t.val (lt128 t) cc)) (t.val % 8) :=
  stretch_base (kX m c) (kW m c) (xblk m c t) (wblk m c t) t.val (lt128 t) r cc
    (fun d => xblk_apply m c t r d) (fun d => wblk_apply m c t d cc)

theorem lowStretch (c : Dev nD) (t : Fin cfg0.N) (r : Fin 2048) (q : Fin 16) :
    (∑ d : Fin 512, xblk m c t (ix2 r d) * ublk m c t (ix2 d q))
      = stretch (gLow (kX m c) (kU m c) (rowOf t.val (lt128 t) r) q) (t.val % 8) :=
  stretch_low (kX m c) (kU m c) (xblk m c t) (ublk m c t) t.val (lt128 t) r q
    (fun d => xblk_apply m c t r d) (fun d => ublk_apply m c t d q)

/-! ## The induction -/

/-- What holds after point `n`. -/
def Holds (c : Dev nD) (n : ℕ) (hn : n < cfg0.N) : Prop :=
  (∀ (r : Fin 2048) (q : Fin 16),
      (outsAt0 m c n hn).2 (ix2 r q) = part (gLow (kX m c) (kU m c) (rowOf n (l128 hn) r) q) (n % 8))
  ∧ (n % 8 ≠ 7 → ∀ (r : Fin 2048) (cc : Fin 1024),
      (outsAt0 m c n hn).1 (ix2 r cc) = part (gBase (kX m c) (kW m c) (rowOf n (l128 hn) r) (colOf n (l128 hn) cc)) (n % 8))
  ∧ (n % 8 = 7 → ∀ (r : Fin 2048) (cc : Fin 1024),
      (outsAt0 m c n hn).1 (ix2 r cc)
        = layer (kX m c) (kW m c) (kU m c) (kV m c) (kB m c) (ix2 (rowOf n (l128 hn) r) (colOf n (l128 hn) cc)))

/-- The first point of a pass. -/
theorem holds_first (c : Dev nD) (t : Fin cfg0.N) (h0 : t.val % 8 = 0) : Holds m c t.val t.isLt := by
  have h1 : ¬t.val % 8 = 7 := by omega
  have e := vals_first m c t h0 h1
  refine ⟨fun r q => ?_, fun _ r cc => ?_, fun h7 => absurd h7 h1⟩
  · refine (congrFun (congrArg Prod.snd e) (ix2 r q)).trans ((stepLow_apply (xblk m c t) (ublk m c t) (k0_pay2 (F := Ideal)) r q).trans ?_)
    rw [zeroLow_apply, zero_add]
    refine (lowStretch m c t r q).trans ?_
    rw [h0, part_zero]
  · refine (congrFun (congrArg Prod.fst e) (ix2 r cc)).trans ((stepBlock_apply (xblk m c t) (wblk m c t) (k0_pay1 (F := Ideal)) r cc).trans ?_)
    rw [zeroBlock_apply, zero_add]
    refine (blockStretch m c t r cc).trans ?_
    rw [h0, part_zero]

/-- A point that is not the first of its pass sits in the same row block and column block as the point before. -/
theorem row_prev (t : Fin cfg0.N) (h0 : ¬t.val % 8 = 0) (r : Fin 2048) :
    rowOf (t.val - 1) (l128 (Nat.lt_of_le_of_lt (Nat.sub_le _ _) t.isLt)) r = rowOf t.val (lt128 t) r :=
  Fin.ext (by have := lt128 t; show 2048 * ((t.val - 1) / 32) + r.val = 2048 * (t.val / 32) + r.val; omega)
theorem col_prev (t : Fin cfg0.N) (h0 : ¬t.val % 8 = 0) (cc : Fin 1024) :
    colOf (t.val - 1) (l128 (Nat.lt_of_le_of_lt (Nat.sub_le _ _) t.isLt)) cc = colOf t.val (lt128 t) cc :=
  Fin.ext (by have := lt128 t; show 1024 * (((t.val - 1) / 8) % 4) + cc.val = 1024 * ((t.val / 8) % 4) + cc.val; omega)

/-- The projection stepped at a point that is not the first of its pass. -/
theorem low_step (c : Dev nD) (t : Fin cfg0.N) (h0 : ¬t.val % 8 = 0)
    (ih : Holds m c (t.val - 1) (Nat.lt_of_le_of_lt (Nat.sub_le _ _) t.isLt)) (r : Fin 2048) (q : Fin 16) :
    k0_pay5 (F := Ideal) (xblk m c t) (ublk m c t) (outsAt0 m c (t.val - 1) (Nat.lt_of_le_of_lt (Nat.sub_le _ _) t.isLt)).2 (ix2 r q)
      = part (gLow (kX m c) (kU m c) (rowOf t.val (lt128 t) r) q) (t.val % 8) := by
  have hk : t.val % 8 = (t.val - 1) % 8 + 1 := by omega
  refine (stepLow_apply (xblk m c t) (ublk m c t) _ r q).trans ?_
  rw [ih.1 r q, row_prev t h0 r]
  refine (congrArg (_ + ·) (lowStretch m c t r q)).trans ?_
  exact part_step _ _ _ hk

/-- The block stepped at a point that is not the first of its pass. -/
theorem block_step (c : Dev nD) (t : Fin cfg0.N) (h0 : ¬t.val % 8 = 0)
    (ih : Holds m c (t.val - 1) (Nat.lt_of_le_of_lt (Nat.sub_le _ _) t.isLt)) (r : Fin 2048) (cc : Fin 1024) :
    k0_pay4 (F := Ideal) (xblk m c t) (wblk m c t) (outsAt0 m c (t.val - 1) (Nat.lt_of_le_of_lt (Nat.sub_le _ _) t.isLt)).1 (ix2 r cc)
      = part (gBase (kX m c) (kW m c) (rowOf t.val (lt128 t) r) (colOf t.val (lt128 t) cc)) (t.val % 8) := by
  have hk : t.val % 8 = (t.val - 1) % 8 + 1 := by omega
  refine (stepBlock_apply (xblk m c t) (wblk m c t) _ r cc).trans ?_
  rw [ih.2.1 (by omega) r cc, row_prev t h0 r, col_prev t h0 cc]
  refine (congrArg (_ + ·) (blockStretch m c t r cc)).trans ?_
  exact part_step _ _ _ hk

/-- An inner point of a pass, from what holds after the point before. -/
theorem holds_inner (c : Dev nD) (t : Fin cfg0.N) (h0 : ¬t.val % 8 = 0) (h1 : ¬t.val % 8 = 7)
    (ih : Holds m c (t.val - 1) (Nat.lt_of_le_of_lt (Nat.sub_le _ _) t.isLt)) : Holds m c t.val t.isLt := by
  have e := vals_inner m c t h0 h1
  exact ⟨fun r q => (congrFun (congrArg Prod.snd e) (ix2 r q)).trans (low_step m c t h0 ih r q),
    fun _ r cc => (congrFun (congrArg Prod.fst e) (ix2 r cc)).trans (block_step m c t h0 ih r cc),
    fun h7 => absurd h7 h1⟩

/-- The last point of a pass, from what holds after the point before. -/
theorem holds_last (c : Dev nD) (t : Fin cfg0.N) (h0 : ¬t.val % 8 = 0) (h1 : t.val % 8 = 7)
    (ih : Holds m c (t.val - 1) (Nat.lt_of_le_of_lt (Nat.sub_le _ _) t.isLt)) : Holds m c t.val t.isLt := by
  have e := vals_last m c t h0 h1
  refine ⟨fun r q => (congrFun (congrArg Prod.snd e) (ix2 r q)).trans (low_step m c t h0 ih r q),
    fun h7 => absurd h1 h7, fun _ r cc => ?_⟩
  refine (congrFun (congrArg Prod.fst e) (ix2 r cc)).trans ((close_apply (vblk m c t) _ _ (bblk m c t) r cc).trans ?_)
  rw [block_step m c t h0 ih r cc, bblk_apply m c t cc, h1, part_seven]
  unfold layer
  refine congrArg (fun z => (_ + z) + _) (Finset.sum_congr rfl fun q _ => ?_)
  rw [low_step m c t h0 ih r q, vblk_apply m c t q cc, h1, part_seven]

/-- After every point. -/
theorem holds (c : Dev nD) : ∀ (n : ℕ) (hn : n < cfg0.N), Holds m c n hn
  | 0, hn => holds_first m c ⟨0, hn⟩ rfl
  | n + 1, hn => by
    have ih : Holds m c n (Nat.lt_of_succ_lt hn) := holds c n (Nat.lt_of_succ_lt hn)
    by_cases h0 : (n + 1) % 8 = 0
    · exact holds_first m c ⟨n + 1, hn⟩ h0
    · by_cases h1 : (n + 1) % 8 = 7
      · exact holds_last m c ⟨n + 1, hn⟩ h0 h1 ih
      · exact holds_inner m c ⟨n + 1, hn⟩ h0 h1 ih

end Cert.KernelIdeal.Passes

end
-- ==== Proof.Result.lean ====
/-
  The kernel's result array.

  Only the last point of a pass writes its block back, and by then the block holds the layer's entries of its rows and
  columns; the 16 passes' blocks tile the [8192, 4096] array (the pass of row block `a` and column block `b` ends at point
  `32 a + 8 b + 7`), so after the run the array is the layer on flattened rows. The host line after the launch unflattens it:
  entry (p, s, f) of the result is the layer's entry at row `p · 2048 + s` and column `f`.
-/
import proofs.«180537_j85401129714088_2_alg».proof.Proof.Passes
import Idealize.ShloMosaic.Lib.Pipeline.Value
import Idealize.ShloMosaic.Lib.StableHlo.Run

noncomputable section

open scoped BigOperators

namespace Cert.KernelIdeal.Result

open Cert.KernelIdeal Cert.KernelIdeal.Gen Cert.KernelIdeal.Blocks Cert.KernelIdeal.Passes Cert.KernelIdeal.Hand
open Cert.KernelIdeal.Prefix (kX kW kU kV kB)
open Cert.LowRank Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer on flattened rows, of the arrays the kernel is launched on. -/
abbrev flat (c : Dev nD) : S8192x4096.Idx → EReal := layer (kX m c) (kW m c) (kU m c) (kV m c) (kB m c)

/-- What the last point of a pass writes back is its block of the layer. -/
theorem flushed_eq (c : Dev nD) (t : Fin cfg0.N) (hf : (cfg0.win 5).flush t = true) :
    (dats m 0 c).flushed 5 t = ((cfg0.win 5).blk t).view.read (Elt Ideal) (flat m c) := by
  have h7 : t.val % 8 = 7 := (flush0_5 t).mp hf
  show (cfg0.win 5).cut (grid0.coords t) ((dats m 0 c).after 5 t) = _
  rw [after0_5]
  refine funext fun (y : S2048x1024.Idx) => ?_
  obtain ⟨r, cc, rfl⟩ : ∃ (r : Fin 2048) (cc : Fin 1024), y = ix2 r cc := ⟨y 0, y 1, eq_ix2 y⟩
  rw [View.read_apply]
  show (outsAt0 m c t.val t.isLt).1 (ix2 r cc) = flat m c (((cfg0.win 5).blk t).view.emb (ix2 r cc))
  rw [(holds m c t.val t.isLt).2.2 h7 r cc]
  congr 1
  funext a
  apply Fin.ext
  match a with
  | ⟨0, _⟩ => show 2048 * (t.val / 32) + r.val = win0_5.index t 0 * 2048 + 1 * r.val; rw [(index5 t).1]; omega
  | ⟨1, _⟩ => show 1024 * ((t.val / 8) % 4) + cc.val = win0_5.index t 1 * 1024 + 1 * cc.val; rw [(index5 t).2]; omega

/-- An index is in point `t`'s block iff each coordinate is in the block's range on its axis. -/
theorem mem_blk (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v8).slice (win0_5.rect t)).set ↔ _
  rw [View.set_slice_whole, Rect.mem_set_unit]
  exact Iff.rfl

/-- Every index of the array is in the block some pass writes back. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨n, hn⟩ : ∃ n, n = 32 * ((i 0).val / 2048) + 8 * ((i 1).val / 1024) + 7 := ⟨_, rfl⟩
  have hN : n < cfg0.N := by rw [show cfg0.N = 128 from N_0]; omega
  refine ⟨⟨n, hN⟩, (flush0_5 _).mpr (by show n % 8 = 7; omega), ?_⟩
  rw [mem_blk]
  intro a
  match a with
  | ⟨0, _⟩ =>
    show win0_5.index ⟨n, hN⟩ 0 * 2048 ≤ (i 0).val ∧ (i 0).val < win0_5.index ⟨n, hN⟩ 0 * 2048 + 2048
    rw [(index5 ⟨n, hN⟩).1]
    show n / 32 * 2048 ≤ (i 0).val ∧ (i 0).val < n / 32 * 2048 + 2048
    omega
  | ⟨1, _⟩ =>
    show win0_5.index ⟨n, hN⟩ 1 * 1024 ≤ (i 1).val ∧ (i 1).val < win0_5.index ⟨n, hN⟩ 1 * 1024 + 1024
    rw [(index5 ⟨n, hN⟩).2]
    show n / 8 % 4 * 1024 ≤ (i 1).val ∧ (i 1).val < n / 8 % 4 * 1024 + 1024
    omega

/-- After the run the kernel's array is the layer on flattened rows. -/
theorem final (c : Dev nD) : (dats m 0 c).arrAt 5 cfg0.N = flat m c :=
  (dats m 0 c).arrAt_eq_of_cover 5 (flat m c) (flushed_eq m c) (covered)

/-- The result: the kernel's array unflattened. -/
abbrev result (c : Dev nD) : S4x2048x4096.Idx → EReal :=
  shapeCast S4x2048x4096 (flat m c) shapeCasts_S8192x4096_S4x2048x4096

/-- The host line after the launch leaves the result. -/
theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  exact congrArg (fun z => shapeCast S4x2048x4096 z shapeCasts_S8192x4096_S4x2048x4096)
    ((Pipeline.withArrays_arr spec0 launch0.win.arr_inj c _ _ 5).trans (final m c))

/-- The run, read: the result buffer at the unflattened layer, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- Entry (p, s, f) of the result is the layer's entry at row `p · 2048 + s` and column `f`. -/
theorem result_apply (c : Dev nD) (p : Fin 4) (s : Fin 2048) (f : Fin 4096) (row : Fin 8192) (h : row.val = p.val * 2048 + s.val) :
    result m c (ix3 p s f) = flat m c (ix2 row f) :=
  shapeCast_mk_abk_apply _ shapeCasts_S8192x4096_S4x2048x4096 p s f row h

end Cert.KernelIdeal.Result

end
-- ==== Proof.RefValue.lean ====
/-
  The reference, read at an index over the extended reals.

  Its three contractions are plain sums over the contracted coordinate; the scaled down-projection is the entrywise product
  with the constant 2; the bias is broadcast over batch and position. So its entry at (p, s, f) is

      (∑_d x[p, s, d] · W[d, f]  +  ∑_q (∑_d x[p, s, d] · (U[d, q] · 2)) · V[q, f])  +  b[f].
-/
import proofs.«180537_j85401129714088_2_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

theorem entry (x0 : S4x2048x4096.Idx → EReal) (x1 : S4096x4096.Idx → EReal) (x2 : S4096x16.Idx → EReal)
    (x3 : S16x4096.Idx → EReal) (x4 : S4096.Idx → EReal) (p : Fin 4) (s : Fin 2048) (f : Fin 4096) :
    val_main_v8 (F := Ideal) x0 x1 x2 x3 x4 (ix3 p s f)
      = ((∑ d : Fin 4096, x0 (ix3 p s d) * x1 (ix2 d f))
          + ∑ q : Fin 16, (∑ d : Fin 4096, x0 (ix3 p s d) * (x2 (ix2 d q) * Ideal.ofBits .f32 0x40000000#32)) * x3 (ix2 q f))
        + x4 (ix1 f) := by
  have e1 : ∀ k, lidx_main_v0 (ix3 p s f) k = ix3 p s k := fun k =>
    funext fun a => Fin.ext (by match a with | ⟨0, _⟩ => rfl | ⟨1, _⟩ => rfl | ⟨2, _⟩ => rfl)
  have e2 : ∀ k, ridx_main_v0 (ix3 p s f) k = ix2 k f := fun k =>
    funext fun a => Fin.ext (by match a with | ⟨0, _⟩ => rfl | ⟨1, _⟩ => rfl)
  have e3 : ∀ q, lidx_main_v4 (ix3 p s f) q = ix3 p s q := fun q =>
    funext fun a => Fin.ext (by match a with | ⟨0, _⟩ => rfl | ⟨1, _⟩ => rfl | ⟨2, _⟩ => rfl)
  have e4 : ∀ q, ridx_main_v4 (ix3 p s f) q = ix2 q f := fun q =>
    funext fun a => Fin.ext (by match a with | ⟨0, _⟩ => rfl | ⟨1, _⟩ => rfl)
  have e5 : ∀ (q : Fin 16) d, lidx_main_v3 (ix3 p s q) d = ix3 p s d := fun q d =>
    funext fun a => Fin.ext (by match a with | ⟨0, _⟩ => rfl | ⟨1, _⟩ => rfl | ⟨2, _⟩ => rfl)
  have e6 : ∀ (q : Fin 16) d, ridx_main_v3 (ix3 p s q) d = ix2 d q := fun q d =>
    funext fun a => Fin.ext (by match a with | ⟨0, _⟩ => rfl | ⟨1, _⟩ => rfl)
  have e7 : idx_main_v6 (idx_main_v7 (ix3 p s f)) = ix1 f :=
    funext fun a => Fin.ext (by match a with | ⟨0, _⟩ => rfl)
  rw [val_main_v8_apply, val_main_v5_apply, val_main_v0_apply, val_main_v4_apply, val_main_v7_apply, val_main_v6_apply, e7]
  simp only [e1, e2, e3, e4, val_main_v3_apply, e5, e6, val_main_v2_apply, val_main_v1_apply, val_main_cst_apply]
  rfl

end Cert.ReferenceIdeal.RefValue

end
-- ==== Proof.Bridge.lean ====
/-
  The two results are one function of the arguments.

  The kernel's entry at (p, s, f) is the layer on flattened rows at row `p · 2048 + s`, of the arrays the host lines handed
  the kernel: the flattened input at that row is the input at (p, s), the scaled down-projection is the down-projection
  times 2, the bias row is the bias. Substituting these, the kernel's entry is the reference's entry term for term: the same
  sums in the same grouping, so no law of arithmetic beyond the regrouping of the contraction into stretches (already used)
  is needed, and none that fails at infinities.
-/
import proofs.«180537_j85401129714088_2_alg».proof.Proof.Result
import proofs.«180537_j85401129714088_2_alg».proof.Proof.RefValue

noncomputable section

open scoped BigOperators

namespace Cert.KernelIdeal.Bridge

open Cert.KernelIdeal Cert.KernelIdeal.Gen Cert.KernelIdeal.Result
open Cert.KernelIdeal.Prefix (kX kW kU kV kB inX inW inU inV inB)
open Cert.LowRank Idealize.ShloMosaic Idealize.ShloMosaic.TcCoe Idealize.SL.Sem Idealize.ShloMosaic.ValueIdx

variable (m : (ℓ : Loc nD τ sig) → Buf (Elt Ideal) ℓ)

theorem result_eq (c : Dev nD) :
    result m c = Cert.ReferenceIdeal.Read.val_main_v8 (F := Ideal) (inX m c) (inW m c) (inU m c) (inV m c) (inB m c) := by
  funext i
  obtain ⟨p, s, f, rfl⟩ : ∃ (p : Fin 4) (s : Fin 2048) (f : Fin 4096), i = ix3 p s f := ⟨i 0, i 1, i 2, eq_ix3 i⟩
  have hrow : p.val * 2048 + s.val < 8192 := by have := p.isLt; have := s.isLt; omega
  rw [Cert.ReferenceIdeal.RefValue.entry, result_apply m c p s f ⟨p.val * 2048 + s.val, hrow⟩ rfl]
  show ((∑ d : Fin 4096, kX m c (ix2 ⟨p.val * 2048 + s.val, hrow⟩ d) * kW m c (ix2 d f))
      + ∑ q : Fin 16, (∑ d : Fin 4096, kX m c (ix2 ⟨p.val * 2048 + s.val, hrow⟩ d) * kU m c (ix2 d q)) * kV m c (ix2 q f))
      + kB m c (ix2 (0 : Fin 1) f) = _
  rw [Prefix.bias_apply, Prefix.weight_eq, Prefix.up_eq]
  simp only [Prefix.input_apply m c p s _ ⟨p.val * 2048 + s.val, hrow⟩ rfl]
  refine congrArg (fun z => (_ + z) + _) (Finset.sum_congr rfl fun q _ => ?_)
  refine congrArg (· * _) (Finset.sum_congr rfl fun d _ => ?_)
  exact congrArg (_ * ·) (Prefix.down_apply m c d q)

end Cert.KernelIdeal.Bridge

end
-- ==== Proof.lean ====
/- The certificate of a linear layer with a low-rank correction: `x · W + (x · (2 U)) · V + b` over [4, 2048, 4096] inputs.

   The kernel flattens batch and position, walks a 4 × 4 × 8 grid of (row block, column block, stretch of the contracted axis),
   accumulates the main product block by block and the rank-16 projection beside it, and closes each block at the last stretch
   with the projection's product with `V` and the bias. The reference takes the three contractions whole. Over the extended
   reals both are the same sums: the kernel's eight stretches regroup the contraction (addition is commutative and
   associative there, infinities included), every change of float format is the identity, and the scale 2 is the same
   constant on both sides. Nothing in the argument needs the inputs finite.

   The three frames are the generated ones (the reference's is its run with the result dropped); the idealization rewrote
   nothing; the value claim joins the kernel's run, read through its result array and the host line after the launch, to
   the reference's run, read one operation at a time. -/
import proofs.«180537_j85401129714088_2_alg».proof.Defs
import proofs.«180537_j85401129714088_2_alg».proof.Proof.Gen.Kernel
import proofs.«180537_j85401129714088_2_alg».proof.Proof.Gen.Kernel.Skeleton
import proofs.«180537_j85401129714088_2_alg».proof.Proof.Gen.Kernel.Launch
import proofs.«180537_j85401129714088_2_alg».proof.Proof.Gen.Kernel.Points
import proofs.«180537_j85401129714088_2_alg».proof.Proof.Gen.Kernel.Frame
import proofs.«180537_j85401129714088_2_alg».proof.Proof.Gen.KernelIdeal
import proofs.«180537_j85401129714088_2_alg».proof.Proof.Gen.KernelIdeal.Skeleton
import proofs.«180537_j85401129714088_2_alg».proof.Proof.Gen.KernelIdeal.Launch
import proofs.«180537_j85401129714088_2_alg».proof.Proof.Gen.KernelIdeal.Points
import proofs.«180537_j85401129714088_2_alg».proof.Proof.Gen.KernelIdeal.Frame
import proofs.«180537_j85401129714088_2_alg».proof.Proof.Gen.ReferenceIdeal
import proofs.«180537_j85401129714088_2_alg».proof.Proof.Gen.ReferenceIdeal.Run
import proofs.«180537_j85401129714088_2_alg».proof.Proof.Gen.ReferenceIdeal.Read
import proofs.«180537_j85401129714088_2_alg».proof.Proof.Gen.Pre_finite_inputs
import proofs.«180537_j85401129714088_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, the kernel's result buffer at the unflattened layer of
    its arguments and the reference's at its own term of the same arguments: one function, entry by entry. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
